-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v4) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x128 : Shape := ⟨2, ![10000, 128]⟩
abbrev S10000x10000 : Shape := ⟨2, ![10000, 10000]⟩
abbrev S128x128 : Shape := ⟨2, ![128, 128]⟩
abbrev S128 : Shape := ⟨1, ![128]⟩
abbrev S_ : Shape := ⟨0, ![]⟩

class Facts : Prop where
  bcast_S_S10000x128 : S_.BroadcastsInDim S10000x128 (![] : Fin 0 → Fin S10000x128.rank)
  reducesTo_S10000x128_S_d0_1 : S10000x128.ReducesTo [0, 1] S_
  h_S_ : 0 < S_.numel
  bcast_S_S10000x10000 : S_.BroadcastsInDim S10000x10000 (![] : Fin 0 → Fin S10000x10000.rank)
  reducesTo_S10000x10000_S_d0_1 : S10000x10000.ReducesTo [0, 1] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  main_v18

def fn {F : FTy → Type} [FloatOps F] (main_arg0 : FVec F S10000x128 .f32) (main_arg1 : FVec F S10000x10000 .f32) (main_arg2 : FVec F S128x128 .f32) (main_arg3 : FVec F S128 .f32) : IVec S_ 1 :=
  let main_v0 : FVec F S10000x128 .f32 := Host.absf main_arg0
  let main_cst : FVec F S_ .f32 := constant S_ .f32 0x7F800000#32
  let main_v1 : FVec F S10000x128 .f32 := broadcastInDim S10000x128 ![] bcast_S_S10000x128 main_cst
  let main_v2 : IVec S10000x128 1 := cmpf .olt main_v0 main_v1
  let main_c : IVec S_ 1 := constantI S_ 1 1#1
  let main_v3 : IVec S_ 1 := (fun x v => Host.reduce IntOp.andi x v reducesTo_S10000x128_S_d0_1 h_S_) main_v2 main_c
  let main_v4 : FVec F S10000x10000 .f32 := Host.absf main_arg1
  let main_cst_0 : FVec F S_ .f32 := constant S_ .f32 0x7F800000#32
  let main_v5 : FVec F S10000x10000 .f32 := broadcastInDim S10000x10000 ![] bcast_S_S10000x10000 main_cst_0
  let main_v6 : IVec S10000x10000 1 := cmpf .olt main_v4 main_v5
  let main_c_1 : IVec S_ 1 := constantI S_ 1 1#1
  let main_v7 : IVec S_ 1 := (fun x v => Host.reduce IntOp.andi x v reducesTo_S10000x10000_S_d0_1 h_S_) main_v6 main_c_1
  let main_v8 : IVec S_ 1 := andi main_v3 main_v7
  let main_v9 : FVec F S128x128 .f32 := Host.absf main_arg2
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg3
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_v13 main_v16
-- ==== Kernel.lean ====
abbrev S10000x128 : Shape := ⟨2, ![10000, 128]⟩
abbrev S10000x10000 : Shape := ⟨2, ![10000, 10000]⟩
abbrev S128x128 : Shape := ⟨2, ![128, 128]⟩
abbrev S128 : Shape := ⟨1, ![128]⟩
abbrev S1x128 : Shape := ⟨2, ![1, 128]⟩
abbrev S400x10000 : Shape := ⟨2, ![400, 10000]⟩
abbrev S400x128 : Shape := ⟨2, ![400, 128]⟩
abbrev S200x10000 : Shape := ⟨2, ![200, 10000]⟩
abbrev S200x128 : Shape := ⟨2, ![200, 128]⟩

abbrev nBuf : Space → Nat
  | .hbm => 6
  | .vmem => 7
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S128x128, .f32⟩
  | .hbm, ⟨3, _⟩ => ⟨S128, .f32⟩
  | .hbm, ⟨4, _⟩ => ⟨S1x128, .f32⟩
  | .hbm, ⟨5, _⟩ => ⟨S10000x128, .f32⟩
  | .local _ .vmem, ⟨0, _⟩ => ⟨S10000x128, .f32⟩
  | .local _ .vmem, ⟨1, _⟩ => ⟨S400x10000, .f32⟩
  | .local _ .vmem, ⟨2, _⟩ => ⟨S400x10000, .f32⟩
  | .local _ .vmem, ⟨3, _⟩ => ⟨S128x128, .f32⟩
  | .local _ .vmem, ⟨4, _⟩ => ⟨S1x128, .f32⟩
  | .local _ .vmem, ⟨5, _⟩ => ⟨S400x128, .f32⟩
  | .local _ .vmem, ⟨6, _⟩ => ⟨S400x128, .f32⟩
  | _, _ => ⟨S10000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_v0 : Ref sig .tc := ⟨.hbm, 4, rfl⟩
abbrev main_v0 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨2, ![25, 2], ![false, false]⟩

def k0_off1 (i : grid0.Coords) : Fin 2 → Nat :=
  let arg1 : BitVec 32 := BitVec.ofNat 32 (i 1).val
  let c200_i32 : BitVec 32 := 200#32
  let v0 : BitVec 32 := Scalar.muli arg1 c200_i32
  let v1 : Index := Scalar.indexCast v0
  let c0 : Index := 0#32
  ![v1.toNat, 0]
def k0_off2 (i : grid0.Coords) : Fin 2 → Nat :=
  let arg1 : BitVec 32 := BitVec.ofNat 32 (i 1).val
  let c200_i32_7 : BitVec 32 := 200#32
  let v11 : BitVec 32 := Scalar.muli arg1 c200_i32_7
  let v12 : Index := Scalar.indexCast v11
  let c0_8 : Index := 0#32
  ![v12.toNat, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 1 → Memref sig .tc .vmem S10000x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S400x10000 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S400x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

class Facts₀ : Prop where
  shapeCasts_S128_S1x128 : S128.ShapeCasts S1x128
  h_S200x10000 : 0 < S200x10000.numel
  inb_S10000x128_S10000x128_0_0 : ∀ a, (![0, 0] : Fin 2 → Nat) a + S10000x128.size a ≤ S10000x128.size a
  h_S10000x128 : 0 < S10000x128.numel
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S200x128 : S1x128.Broadcasts S200x128
  h_S200x128 : 0 < S200x128.numel
  dot_S200x10000_S10000x128_S200x128_1_0_0_1_n_n_wf : DotDims.WF S200x10000 S10000x128 S200x128 [1] [0] [0] [1] [] []
  dot_S200x128_S128x128_S200x128_1_0_0_1_n_n_wf : DotDims.WF S200x128 S128x128 S200x128 [1] [0] [0] [1] [] []
  hrank0 : 0 < grid0.rank
  k0_off1_inb : ∀ i : grid0.Coords, ∀ a, (k0_off1 i) a + S200x10000.size a ≤ S400x10000.size a
  k0_off2_inb : ∀ i : grid0.Coords, ∀ a, (k0_off2 i) a + S200x128.size a ≤ S400x128.size a
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S10000x128.size a
  hwx0_0 : ∀ i : grid0.Coords, EltTy.bits .f32 = 32 ∨ (Rect.block (s := S10000x128) S10000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S400x10000.size a ≤ S10000x10000.size a
  hwx0_1 : ∀ i : grid0.Coords, EltTy.bits .f32 = 32 ∨ (Rect.block (s := S10000x10000) S400x10000.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S400x128.size a ≤ S10000x128.size a
  hwx0_4 : ∀ i : grid0.Coords, EltTy.bits .f32 = 32 ∨ (Rect.block (s := S10000x128) S400x128.size (cc0_transform_4 i) (hinb0_4 i)).WholeWords (EltTy.packing .f32)

variable [Facts₀]

def dot_S200x10000_S10000x128_S200x128_1_0_0_1_n_n : DotDims S200x10000 S10000x128 S200x128 where
  lhsContracting := [1]
  rhsContracting := [0]
  lhsNonContracting := [0]
  rhsNonContracting := [1]
  lhsBatch := []
  rhsBatch := []
  wf := dot_S200x10000_S10000x128_S200x128_1_0_0_1_n_n_wf
def dot_S200x128_S128x128_S200x128_1_0_0_1_n_n : DotDims S200x128 S128x128 S200x128 where
  lhsContracting := [1]
  rhsContracting := [0]
  lhsNonContracting := [0]
  rhsNonContracting := [1]
  lhsBatch := []
  rhsBatch := []
  wf := dot_S200x128_S128x128_S200x128_1_0_0_1_n_n_wf

abbrev win0_0 : Pipeline.Window sig grid0 :=
  Pipeline.Window.ofSpec (Memref.whole main_arg0) S10000x128.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S400x10000.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_call0_v0) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v0) S400x128.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S10000x128 : Shape := ⟨2, ![10000, 128]⟩
abbrev S10000x10000 : Shape := ⟨2, ![10000, 10000]⟩
abbrev S128x128 : Shape := ⟨2, ![128, 128]⟩
abbrev S128 : Shape := ⟨1, ![128]⟩
abbrev S1x128 : Shape := ⟨2, ![1, 128]⟩

abbrev nBuf : Space → Nat
  | .hbm => 9
  | .vmem => 0
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S128x128, .f32⟩
  | .hbm, ⟨3, _⟩ => ⟨S128, .f32⟩
  | .hbm, ⟨4, _⟩ => ⟨S10000x128, .f32⟩
  | .hbm, ⟨5, _⟩ => ⟨S10000x128, .f32⟩
  | .hbm, ⟨6, _⟩ => ⟨S1x128, .f32⟩
  | .hbm, ⟨7, _⟩ => ⟨S10000x128, .f32⟩
  | .hbm, ⟨8, _⟩ => ⟨S10000x128, .f32⟩
  | _, _ => ⟨S10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩

abbrev nD : Nat := 1
abbrev τ : Topo := Topo.v7x

variable {F : FTy → Type} [FloatOps F]

class Facts₀ : Prop where
  bcast_S128_S1x128_1 : S128.BroadcastsInDim S1x128 (![1] : Fin 1 → Fin S1x128.rank)
  bcast_S1x128_S10000x128_0_1 : S1x128.BroadcastsInDim S10000x128 (![0, 1] : Fin 2 → Fin S10000x128.rank)
  dot_S10000x10000_S10000x128_S10000x128_1_0_0_1_n_n_wf : DotDims.WF S10000x10000 S10000x128 S10000x128 [1] [0] [0] [1] [] []
  dot_S10000x128_S128x128_S10000x128_1_0_0_1_n_n_wf : DotDims.WF S10000x128 S128x128 S10000x128 [1] [0] [0] [1] [] []

variable [Facts₀]

def dot_S10000x10000_S10000x128_S10000x128_1_0_0_1_n_n : DotDims S10000x10000 S10000x128 S10000x128 where
  lhsContracting := [1]
  rhsContracting := [0]
  lhsNonContracting := [0]
  rhsNonContracting := [1]
  lhsBatch := []
  rhsBatch := []
  wf := dot_S10000x10000_S10000x128_S10000x128_1_0_0_1_n_n_wf
def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf

class Facts : Prop extends Facts₀ where

variable [Facts]
-- ==== Proof.KernelStep.lean ====
/-
  One step of the kernel, as a statement about buffers.

  The grid is 25 row tiles of A by 2 half-tiles. At a point with coordinates (m, k) the body reads the band of 200
  rows of the staged 400 × 10000 tile of A that starts at row 200·k, multiplies it by the whole X, the result by W,
  adds the bias row down the band, and stores the 200 × 128 result into rows [200·k, 200·k + 200) of the staged
  400 × 128 output block. The rest of the block is NOT touched: after the step the block is what it was before with
  that band of rows replaced. `StepRel o pay Y X` says exactly this of the contents `Y` found and `X` left; `step_run`
  is the body's triple: the four inputs handed back as they were, the output block in that relation.
-/
import proofs.«159365_g70858370449879_cont_9to1_m_1099_15_alg».proof.Proof.Gen.Kernel.Frame
import proofs.«159365_g70858370449879_cont_9to1_m_1099_15_alg».proof.Proof.Gen.Kernel.Skeleton
import Idealize.ShloMosaic.Lib.WritesUnit
import Idealize.ShloMosaic.Lib.Pipeline.Value

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)

variable {F : FTy → Type} [FloatOps F]

local notation "𝕄" => MT nD τ sig Unit (Elt F) ℕ (UR sig nD τ) ℕ

/-- The band of rows of the staged tile of A a step at coordinates `i` reads: rows [200·k, 200·k + 200), every column. -/
def band (i : grid0.Coords) (x1 : Vec F S400x10000 .f32) : Vec F S200x10000 .f32 :=
  View.ld x1 (Rect.unit (s := S400x10000) (k0_off1 i) S200x10000.size (k0_off1_inb i))

/-- What the step stores: (band · X) · W + bias row, as the body computes it from the staged blocks. -/
def stepPay (i : grid0.Coords) (x0 : Vec F S10000x128 .f32) (x1 : Vec F S400x10000 .f32) (x2 : Vec F S128x128 .f32)
    (x3 : Vec F S1x128 .f32) : Vec F S200x128 .f32 :=
  k0_pay1 (band i x1) x0 x2 x3

/-- `X` is `Y` with the rows [o, o + 200) replaced by `pay`: row o + p of `X` is row p of `pay`, every other row is `Y`'s. -/
def StepRel (o : Nat) (pay : S200x128.Idx → Elt F .f32) (Y X : S400x128.Idx → Elt F .f32) : Prop :=
  (∀ (y : S400x128.Idx) (x : S200x128.Idx), (y (0 : Fin 2)).val = o + (x (0 : Fin 2)).val →
      (y (1 : Fin 2)).val = (x (1 : Fin 2)).val → X y = pay x)
  ∧ ∀ y : S400x128.Idx, ((y (0 : Fin 2)).val < o ∨ o + 200 ≤ (y (0 : Fin 2)).val) → X y = Y y

/-- The store's offsets are a row offset and column 0. -/
theorem off2_rows (i : grid0.Coords) : k0_off2 i = ![k0_off2 i (0 : Fin 2), 0] := by
  funext a
  match a with
  | ⟨0, _⟩ => rfl
  | ⟨1, _⟩ => rfl

/-- One store of a band of whole rows through a view of the block leaves the block in `StepRel` to what it held. -/
theorem stepRel_of_store {κ : Kind} {sp : Space} (v : View sig κ sp S400x128 .f32) (f : v.ty.Contents (Elt F))
    {off : Fin 2 → Nat} {o : Nat} (inb : ∀ a : Fin 2, off a + S200x128.size a ≤ S400x128.size a)
    (w : (Rect.unit (s := S400x128) off S200x128.size inb).shape.Idx → Elt F .f32) (hoff : off = ![o, 0]) :
    StepRel o w (v.read (Elt F) f)
      (v.read (Elt F) (v.writes (Elt F) f [(⟨Rect.unit (s := S400x128) off S200x128.size inb, w⟩ : View.Piece (Elt F) S400x128 .f32)])) :=
  ⟨fun y x h0 h1 => View.read_writes_cons_rows_of_mem v f inb w [] y x hoff h0 h1,
   fun y h => View.read_writes_cons_rows_of_not_mem v f inb w [] y hoff rfl h⟩

set_option maxHeartbeats 1000000 in
/-- The body's triple at any coordinates, on whole staging memrefs at any contents: the inputs come back as they were,
    the output block with the step's band of rows replaced by the step's payload. -/
theorem step_run (c : Dev nD) (i : grid0.Coords) (arg2 : Memref sig .tc .vmem S10000x128 .f32) (harg2 : arg2.IsWhole) (arg3 : Memref sig .tc .vmem S400x10000 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S400x128 .f32) (harg6 : arg6.IsWhole)
    (x0 : Vec F S10000x128 .f32) (x1 : Vec F S400x10000 .f32) (x2 : Vec F S128x128 .f32) (x3 : Vec F S1x128 .f32) (y4 : Vec F S400x128 .f32) :
      ∀ (E : Set ℕ) (K : PUnit → sProp 𝕄),
        iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare y4
            ∗ (iprop(owns (c : Thread nD τ) arg2 fullShare x0 ∗ owns (c : Thread nD τ) arg3 fullShare x1 ∗ owns (c : Thread nD τ) arg4 fullShare x2
                ∗ owns (c : Thread nD τ) arg5 fullShare x3
                ∗ (∃ X, ⌜StepRel (k0_off2 i (0 : Fin 2)) (stepPay i x0 x1 x2 x3) y4 X⌝ ∗ owns (c : Thread nD τ) arg6 fullShare X)) -∗ K ⟨⟩))
          ⊢ wp frame (wpE (defs₀ (F := F)) Variants.none c none) E (cc0__gcn_body i arg2 harg2 arg3 harg3 arg4 harg4 arg5 harg5 arg6 harg6) K := by
    intro E K
    simp only [cc0__gcn_body_eq_skeleton]; unfold cc0__gcn_body_skel
    unfold owns
    iintro ⟨⟨%f0, %hf0, H0⟩, ⟨%f1, %hf1, H1⟩, ⟨%f2, %hf2, H2⟩, ⟨%f3, %hf3, H3⟩, ⟨%f4, %hf4, H4⟩, Hk⟩
    obtain rfl := harg2.eq_unread hf0
    obtain rfl := harg3.eq_unread hf1
    obtain rfl := harg4.eq_unread hf2
    obtain rfl := harg5.eq_unread hf3
    obtain rfl := harg6.eq_unread hf4
    sl_exec
    sl_step
    iapply Hk
    isplitl [H0]
    · iexists _; isplitr; · ipureintro; exact hf0
      iexact H0
    isplitl [H1]
    · iexists _; isplitr; · ipureintro; exact hf1
      iexact H1
    isplitl [H2]
    · iexists _; isplitr; · ipureintro; exact hf2
      iexact H2
    isplitl [H3]
    · iexists _; isplitr; · ipureintro; exact hf3
      iexact H3
    iexists _; isplitr; swap
    · iexists _; isplitr; swap; · iexact H4
      ipureintro; rfl
    ipureintro
    have hz2 : (![0, 0] : Fin 2 → Nat) = fun _ => 0 := by funext a; match a with | ⟨0, _⟩ => rfl | ⟨1, _⟩ => rfl
    have e0 : View.readAt (Elt F) arg2.view (Rect.unit (s := S10000x128) ![0, 0] S10000x128.size inb_S10000x128_S10000x128_0_0).toLoadRect (harg2.unread x0) = x0 := by
      rw [View.readAt_eq_ld, hf0]; exact View.ld_unit_zero hz2 _ x0
    have e1 : View.readAt (Elt F) arg3.view (Rect.unit (s := S400x10000) (k0_off1 i) S200x10000.size (k0_off1_inb i)).toLoadRect (harg3.unread x1) = band i x1 := by
      rw [View.readAt_eq_ld, hf1]; rfl
    have e2 : View.readAt (Elt F) arg4.view (Rect.unit (s := S128x128) ![0, 0] S128x128.size inb_S128x128_S128x128_0_0).toLoadRect (harg4.unread x2) = x2 := by
      rw [View.readAt_eq_ld, hf2]; exact View.ld_unit_zero hz2 _ x2
    have e3 : View.readAt (Elt F) arg5.view (Rect.unit (s := S1x128) ![0, 0] S1x128.size inb_S1x128_S1x128_0_0).toLoadRect (harg5.unread x3) = x3 := by
      rw [View.readAt_eq_ld, hf3]; exact View.ld_unit_zero hz2 _ x3
    rw [e0, e1, e2, e3]
    have h := stepRel_of_store (F := F) arg6.view (harg6.unread y4) (k0_off2_inb i)
      (stepPay i x0 x1 x2 x3) (off2_rows i)
    rw [hf4] at h
    exact h

end Cert.Kernel.Hand

end
-- ==== Proof.KernelRun.lean ====
/-
  The whole run of the kernel from one step's triple.

  The proof data say, for each window, how the contents the body is handed relate to the contents it hands back: each of
  the four inputs (X, the tile of A, W, the bias row) comes back as it was found; the output block comes back with the
  step's band of rows replaced by the step's payload (`StepRel`), nothing else said of it — at the first of a tile's two
  steps the other band still holds whatever the buffer held. Since the inputs are left as found, the body finds each
  input's block of the array as the region found it, whether that step fetched it or not. From these the pipelined run
  follows: every weakly fair execution terminates, the input arrays and the bias end unchanged, and the output array ends
  at SOME contents obtained from the step relation write-back by write-back (`RDat.ArrAt`), which the value module reads.
-/
import proofs.«159365_g70858370449879_cont_9to1_m_1099_15_alg».proof.Proof.KernelStep

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The step relation at point `t`: its band's row offset, and its payload over the blocks of the arrays at `t`. -/
def stepAt (c : Dev nD) (t : Fin cfg0.N) (Y X : S400x128.Idx → Elt F .f32) : Prop :=
  StepRel (k0_off2 (grid0.coords t) (0 : Fin 2))
    (stepPay (grid0.coords t) (iblk m c 0 t) (iblk m c 1 t) (iblk m c 2 t) (iblk m c 3 t)) Y X

/-- The proof data on core `c`: the arrays as the region finds them; each input left as found, the output block in the
    step relation; the class's invariant; nothing owed; full shares. -/
def rdat (c : Dev nD) : RDat τ (Elt F) Unit ℕ (UR sig nD τ) ℕ cfg0 c where
  A w := V m c (Pipeline.arrRef spec0 w)
  after w := match w with
    | ⟨0, _⟩ => fun _ Y X => X = Y
    | ⟨1, _⟩ => fun _ Y X => X = Y
    | ⟨2, _⟩ => fun _ Y X => X = Y
    | ⟨3, _⟩ => fun _ Y X => X = Y
    | ⟨4, _⟩ => fun t Y X => stepAt m c t Y X
  Φ _ := Pipeline.ΦA spec0 c
  q _ := fullShare
  owed _ := 0

theorem A_eq (c : Dev nD) (w : Fin cfg0.W) : (rdat m c).A w = V m c (Pipeline.arrRef spec0 w) := by
  dsimp only [rdat]

/-- What the body finds in input window 0 (X) at any point is X's one block, the whole array. -/
theorem finds0_0 (c : Dev nD) (t : Fin cfg0.N) (Y) (h : (rdat m c).Finds 0 t Y) : Y = iblk m c 0 t := by
  obtain ⟨d, rfl⟩ := (rdat m c).finds_in_eq_fetched 0 rfl (fun _ _ _ => rfl) (fun _ _ _ h => h) t Y h
  unfold RDat.fetched RDat.blockOf iblk; rw [A_eq]; try rfl
/-- What it finds in input window 1 at any point is the tile of A of that point's row tile, fetched there or not. -/
theorem finds0_1 (c : Dev nD) (t : Fin cfg0.N) (Y) (h : (rdat m c).Finds 1 t Y) : Y = iblk m c 1 t := by
  obtain ⟨d, rfl⟩ := (rdat m c).finds_in_eq_fetched 1 rfl (fun _ _ _ => rfl) (fun _ _ _ h => h) t Y h
  unfold RDat.fetched RDat.blockOf iblk; rw [A_eq]; try rfl
/-- Window 2 (W): its one block. -/
theorem finds0_2 (c : Dev nD) (t : Fin cfg0.N) (Y) (h : (rdat m c).Finds 2 t Y) : Y = iblk m c 2 t := by
  obtain ⟨d, rfl⟩ := (rdat m c).finds_in_eq_fetched 2 rfl (fun _ _ _ => rfl) (fun _ _ _ h => h) t Y h
  unfold RDat.fetched RDat.blockOf iblk; rw [A_eq]; try rfl
/-- Window 3 (the bias row): its one block. -/
theorem finds0_3 (c : Dev nD) (t : Fin cfg0.N) (Y) (h : (rdat m c).Finds 3 t Y) : Y = iblk m c 3 t := by
  obtain ⟨d, rfl⟩ := (rdat m c).finds_in_eq_fetched 3 rfl (fun _ _ _ => rfl) (fun _ _ _ h => h) t Y h
  unfold RDat.fetched RDat.blockOf iblk; rw [A_eq]; try rfl

/-- What the body is called with at point `t`, the inputs at their blocks and the output block at contents `Y4`, -/
def bodyPre (c : Dev nD) (t : Fin cfg0.N) (Y4 : S400x128.Idx → Elt F .f32) : sProp 𝕄 :=
  iprop((rdat m c).Φ t.castSucc ∗ (rdat m c).owesAt () t.castSucc
    ∗ owns (c : Thread nD τ) (st0_0 t) fullShare (iblk m c 0 t)
    ∗ owns (c : Thread nD τ) (st0_1 t) fullShare (iblk m c 1 t)
    ∗ owns (c : Thread nD τ) (st0_2 t) fullShare (iblk m c 2 t)
    ∗ owns (c : Thread nD τ) (st0_3 t) fullShare (iblk m c 3 t)
    ∗ owns (c : Thread nD τ) (st0_4 t) fullShare Y4)

/-- and what it returns. -/
def bodyPost (c : Dev nD) (t : Fin cfg0.N) (Y4 : S400x128.Idx → Elt F .f32) : sProp 𝕄 :=
  iprop((rdat m c).Φ t.succ ∗ (rdat m c).owesAt () t.succ
    ∗ (∃ X, ⌜X = iblk m c 0 t⌝ ∗ owns (c : Thread nD τ) (st0_0 t) fullShare X)
    ∗ (∃ X, ⌜X = iblk m c 1 t⌝ ∗ owns (c : Thread nD τ) (st0_1 t) fullShare X)
    ∗ (∃ X, ⌜X = iblk m c 2 t⌝ ∗ owns (c : Thread nD τ) (st0_2 t) fullShare X)
    ∗ (∃ X, ⌜X = iblk m c 3 t⌝ ∗ owns (c : Thread nD τ) (st0_3 t) fullShare X)
    ∗ (∃ X, ⌜stepAt m c t Y4 X⌝ ∗ owns (c : Thread nD τ) (st0_4 t) fullShare X))

/-- The body at any point: the step's triple applies; the invariant passes through unread; nothing is owed. -/
theorem sound_body (c : Dev nD) (t : Fin cfg0.N) (Y4 : S400x128.Idx → Elt F .f32) :
    bodyPre m c t Y4 ⊢ wp frame (wpE (defs₀ (F := F)) Variants.none c none) Set.univ (bodyAt0 t) (fun _ => bodyPost m c t Y4) := by
  unfold bodyPre bodyPost bodyAt0
  rw [show (rdat m c).Φ t.succ = (rdat m c).Φ t.castSucc from rfl,
    show (rdat m c).owesAt () t.succ = (rdat m c).owesAt () t.castSucc from rfl]
  iintro ⟨HΦ, Ho, H0, H1, H2, H3, H4⟩
  iapply ((step_run c (grid0.coords t) _ _ _ _ _ _ _ _ _ _ (iblk m c 0 t) (iblk m c 1 t) (iblk m c 2 t) (iblk m c 3 t) Y4) Set.univ _)
  isplitl [H0]; · iexact H0
  isplitl [H1]; · iexact H1
  isplitl [H2]; · iexact H2
  isplitl [H3]; · iexact H3
  isplitl [H4]; · iexact H4
  iintro ⟨H0, H1, H2, H3, ⟨%X, %hX, H4⟩⟩
  isplitl [HΦ]; · iexact HΦ
  isplitl [Ho]; · iexact Ho
  isplitl [H0]
  · iexists _; isplitr; · ipureintro; rfl
    iexact H0
  isplitl [H1]
  · iexists _; isplitr; · ipureintro; rfl
    iexact H1
  isplitl [H2]
  · iexists _; isplitr; · ipureintro; rfl
    iexact H2
  isplitl [H3]
  · iexists _; isplitr; · ipureintro; rfl
    iexact H3
  iexists X; isplitr; · ipureintro; exact hX
  iexact H4

/-- The library's body obligation for the relational data, at every point and whatever the buffers may then hold. -/
theorem body_obligation (c : Dev nD) : (rdat (F := F) m c).BodyObligation (defs₀ (F := F)) Variants.none () Set.univ := fun t Y hY => by
  rw [bigSep_W0, bigSep_W0]
  have h0 := finds0_0 m c t (Y 0) (hY 0)
  have h1 := finds0_1 m c t (Y 1) (hY 1)
  have h2 := finds0_2 m c t (Y 2) (hY 2)
  have h3 := finds0_3 m c t (Y 3) (hY 3)
  rw [h0, h1, h2, h3]
  exact sound_body m c t (Y 4)

-- the launch theorem's implicit arguments are found by unifying its conclusion with this one, which takes unfolding plain
-- definitions in a metavariable's type
set_option backward.isDefEq.respectTransparency.types false in
/-- Every weakly fair execution of @main terminates; each array a window stages ends at contents the relational data
    allow after every write-back, every other unscoped buffer as the region found it. -/
theorem run_main : θ_run defs (onTc (τ := τ) (main (F := F))) (s₀ m ρ) (Pipeline.RDat.FramePost (cfgs 0) (fun c => rdat m c) (V m)) :=
  Pipeline.RDat.θ_run_frame cfgs (0 : Fin 1) launch0 defs₀ Variants.none (fun c => rdat m c) m ρ main
    (hbody := fun c => body_obligation m c) (hshare := fun c => (rdat m c).share_full fun _ => rfl)
    (howed := fun _ _ => rfl) (V := V m) (hmain := hmain m Variants.none) (hA := A_eq m) (hΦ := fun _ _ => rfl)

/-- The frame: the four argument arrays end as launched — three are staged inputs, never written; the bias is no
    window's array and bypasses the region. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨(Eq.mp (congrFun ((rdat m c).ArrAt_in 0 rfl _) _) ((h c).1 0)).trans ((A_eq m c 0).trans (V_main_arg0 m c)),
     (Eq.mp (congrFun ((rdat m c).ArrAt_in 1 rfl _) _) ((h c).1 1)).trans ((A_eq m c 1).trans (V_main_arg1 m c)),
     (Eq.mp (congrFun ((rdat m c).ArrAt_in 2 rfl _) _) ((h c).1 2)).trans ((A_eq m c 2).trans (V_main_arg2 m c)),
     ((h c).2 main_arg3 (Pipeline.mem_restRefs_of main_arg3 (by decide) (by decide))).trans (V_main_arg3 m c)⟩) (run_main m ρ)

end Cert.Kernel.Hand

end
-- ==== Proof.KernelIdealStep.lean ====
/-
  One step of the kernel, as a statement about buffers.

  The grid is 25 row tiles of A by 2 half-tiles. At a point with coordinates (m, k) the body reads the band of 200
  rows of the staged 400 × 10000 tile of A that starts at row 200·k, multiplies it by the whole X, the result by W,
  adds the bias row down the band, and stores the 200 × 128 result into rows [200·k, 200·k + 200) of the staged
  400 × 128 output block. The rest of the block is NOT touched: after the step the block is what it was before with
  that band of rows replaced. `StepRel o pay Y X` says exactly this of the contents `Y` found and `X` left; `step_run`
  is the body's triple: the four inputs handed back as they were, the output block in that relation.
-/
import proofs.«159365_g70858370449879_cont_9to1_m_1099_15_alg».proof.Proof.Gen.KernelIdeal.Frame
import proofs.«159365_g70858370449879_cont_9to1_m_1099_15_alg».proof.Proof.Gen.KernelIdeal.Skeleton
import Idealize.ShloMosaic.Lib.WritesUnit
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)

variable {F : FTy → Type} [FloatOps F]

local notation "𝕄" => MT nD τ sig Unit (Elt F) ℕ (UR sig nD τ) ℕ

/-- The band of rows of the staged tile of A a step at coordinates `i` reads: rows [200·k, 200·k + 200), every column. -/
def band (i : grid0.Coords) (x1 : Vec F S400x10000 .f32) : Vec F S200x10000 .f32 :=
  View.ld x1 (Rect.unit (s := S400x10000) (k0_off1 i) S200x10000.size (k0_off1_inb i))

/-- What the step stores: (band · X) · W + bias row, as the body computes it from the staged blocks. -/
def stepPay (i : grid0.Coords) (x0 : Vec F S10000x128 .f32) (x1 : Vec F S400x10000 .f32) (x2 : Vec F S128x128 .f32)
    (x3 : Vec F S1x128 .f32) : Vec F S200x128 .f32 :=
  k0_pay1 (band i x1) x0 x2 x3

/-- `X` is `Y` with the rows [o, o + 200) replaced by `pay`: row o + p of `X` is row p of `pay`, every other row is `Y`'s. -/
def StepRel (o : Nat) (pay : S200x128.Idx → Elt F .f32) (Y X : S400x128.Idx → Elt F .f32) : Prop :=
  (∀ (y : S400x128.Idx) (x : S200x128.Idx), (y (0 : Fin 2)).val = o + (x (0 : Fin 2)).val →
      (y (1 : Fin 2)).val = (x (1 : Fin 2)).val → X y = pay x)
  ∧ ∀ y : S400x128.Idx, ((y (0 : Fin 2)).val < o ∨ o + 200 ≤ (y (0 : Fin 2)).val) → X y = Y y

/-- The store's offsets are a row offset and column 0. -/
theorem off2_rows (i : grid0.Coords) : k0_off2 i = ![k0_off2 i (0 : Fin 2), 0] := by
  funext a
  match a with
  | ⟨0, _⟩ => rfl
  | ⟨1, _⟩ => rfl

/-- One store of a band of whole rows through a view of the block leaves the block in `StepRel` to what it held. -/
theorem stepRel_of_store {κ : Kind} {sp : Space} (v : View sig κ sp S400x128 .f32) (f : v.ty.Contents (Elt F))
    {off : Fin 2 → Nat} {o : Nat} (inb : ∀ a : Fin 2, off a + S200x128.size a ≤ S400x128.size a)
    (w : (Rect.unit (s := S400x128) off S200x128.size inb).shape.Idx → Elt F .f32) (hoff : off = ![o, 0]) :
    StepRel o w (v.read (Elt F) f)
      (v.read (Elt F) (v.writes (Elt F) f [(⟨Rect.unit (s := S400x128) off S200x128.size inb, w⟩ : View.Piece (Elt F) S400x128 .f32)])) :=
  ⟨fun y x h0 h1 => View.read_writes_cons_rows_of_mem v f inb w [] y x hoff h0 h1,
   fun y h => View.read_writes_cons_rows_of_not_mem v f inb w [] y hoff rfl h⟩

set_option maxHeartbeats 1000000 in
/-- The body's triple at any coordinates, on whole staging memrefs at any contents: the inputs come back as they were,
    the output block with the step's band of rows replaced by the step's payload. -/
theorem step_run (c : Dev nD) (i : grid0.Coords) (arg2 : Memref sig .tc .vmem S10000x128 .f32) (harg2 : arg2.IsWhole) (arg3 : Memref sig .tc .vmem S400x10000 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S400x128 .f32) (harg6 : arg6.IsWhole)
    (x0 : Vec F S10000x128 .f32) (x1 : Vec F S400x10000 .f32) (x2 : Vec F S128x128 .f32) (x3 : Vec F S1x128 .f32) (y4 : Vec F S400x128 .f32) :
      ∀ (E : Set ℕ) (K : PUnit → sProp 𝕄),
        iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare y4
            ∗ (iprop(owns (c : Thread nD τ) arg2 fullShare x0 ∗ owns (c : Thread nD τ) arg3 fullShare x1 ∗ owns (c : Thread nD τ) arg4 fullShare x2
                ∗ owns (c : Thread nD τ) arg5 fullShare x3
                ∗ (∃ X, ⌜StepRel (k0_off2 i (0 : Fin 2)) (stepPay i x0 x1 x2 x3) y4 X⌝ ∗ owns (c : Thread nD τ) arg6 fullShare X)) -∗ K ⟨⟩))
          ⊢ wp frame (wpE (defs₀ (F := F)) Variants.none c none) E (cc0__gcn_body i arg2 harg2 arg3 harg3 arg4 harg4 arg5 harg5 arg6 harg6) K := by
    intro E K
    simp only [cc0__gcn_body_eq_skeleton]; unfold cc0__gcn_body_skel
    unfold owns
    iintro ⟨⟨%f0, %hf0, H0⟩, ⟨%f1, %hf1, H1⟩, ⟨%f2, %hf2, H2⟩, ⟨%f3, %hf3, H3⟩, ⟨%f4, %hf4, H4⟩, Hk⟩
    obtain rfl := harg2.eq_unread hf0
    obtain rfl := harg3.eq_unread hf1
    obtain rfl := harg4.eq_unread hf2
    obtain rfl := harg5.eq_unread hf3
    obtain rfl := harg6.eq_unread hf4
    sl_exec
    sl_step
    iapply Hk
    isplitl [H0]
    · iexists _; isplitr; · ipureintro; exact hf0
      iexact H0
    isplitl [H1]
    · iexists _; isplitr; · ipureintro; exact hf1
      iexact H1
    isplitl [H2]
    · iexists _; isplitr; · ipureintro; exact hf2
      iexact H2
    isplitl [H3]
    · iexists _; isplitr; · ipureintro; exact hf3
      iexact H3
    iexists _; isplitr; swap
    · iexists _; isplitr; swap; · iexact H4
      ipureintro; rfl
    ipureintro
    have hz2 : (![0, 0] : Fin 2 → Nat) = fun _ => 0 := by funext a; match a with | ⟨0, _⟩ => rfl | ⟨1, _⟩ => rfl
    have e0 : View.readAt (Elt F) arg2.view (Rect.unit (s := S10000x128) ![0, 0] S10000x128.size inb_S10000x128_S10000x128_0_0).toLoadRect (harg2.unread x0) = x0 := by
      rw [View.readAt_eq_ld, hf0]; exact View.ld_unit_zero hz2 _ x0
    have e1 : View.readAt (Elt F) arg3.view (Rect.unit (s := S400x10000) (k0_off1 i) S200x10000.size (k0_off1_inb i)).toLoadRect (harg3.unread x1) = band i x1 := by
      rw [View.readAt_eq_ld, hf1]; rfl
    have e2 : View.readAt (Elt F) arg4.view (Rect.unit (s := S128x128) ![0, 0] S128x128.size inb_S128x128_S128x128_0_0).toLoadRect (harg4.unread x2) = x2 := by
      rw [View.readAt_eq_ld, hf2]; exact View.ld_unit_zero hz2 _ x2
    have e3 : View.readAt (Elt F) arg5.view (Rect.unit (s := S1x128) ![0, 0] S1x128.size inb_S1x128_S1x128_0_0).toLoadRect (harg5.unread x3) = x3 := by
      rw [View.readAt_eq_ld, hf3]; exact View.ld_unit_zero hz2 _ x3
    rw [e0, e1, e2, e3]
    have h := stepRel_of_store (F := F) arg6.view (harg6.unread y4) (k0_off2_inb i)
      (stepPay i x0 x1 x2 x3) (off2_rows i)
    rw [hf4] at h
    exact h

end Cert.KernelIdeal.Hand

end
-- ==== Proof.KernelIdealRun.lean ====
/-
  The whole run of the kernel from one step's triple.

  The proof data say, for each window, how the contents the body is handed relate to the contents it hands back: each of
  the four inputs (X, the tile of A, W, the bias row) comes back as it was found; the output block comes back with the
  step's band of rows replaced by the step's payload (`StepRel`), nothing else said of it — at the first of a tile's two
  steps the other band still holds whatever the buffer held. Since the inputs are left as found, the body finds each
  input's block of the array as the region found it, whether that step fetched it or not. From these the pipelined run
  follows: every weakly fair execution terminates, the input arrays and the bias end unchanged, and the output array ends
  at SOME contents obtained from the step relation write-back by write-back (`RDat.ArrAt`), which the value module reads.
-/
import proofs.«159365_g70858370449879_cont_9to1_m_1099_15_alg».proof.Proof.KernelIdealStep

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The step relation at point `t`: its band's row offset, and its payload over the blocks of the arrays at `t`. -/
def stepAt (c : Dev nD) (t : Fin cfg0.N) (Y X : S400x128.Idx → Elt F .f32) : Prop :=
  StepRel (k0_off2 (grid0.coords t) (0 : Fin 2))
    (stepPay (grid0.coords t) (iblk m c 0 t) (iblk m c 1 t) (iblk m c 2 t) (iblk m c 3 t)) Y X

/-- The proof data on core `c`: the arrays as the region finds them; each input left as found, the output block in the
    step relation; the class's invariant; nothing owed; full shares. -/
def rdat (c : Dev nD) : RDat τ (Elt F) Unit ℕ (UR sig nD τ) ℕ cfg0 c where
  A w := V m c (Pipeline.arrRef spec0 w)
  after w := match w with
    | ⟨0, _⟩ => fun _ Y X => X = Y
    | ⟨1, _⟩ => fun _ Y X => X = Y
    | ⟨2, _⟩ => fun _ Y X => X = Y
    | ⟨3, _⟩ => fun _ Y X => X = Y
    | ⟨4, _⟩ => fun t Y X => stepAt m c t Y X
  Φ _ := Pipeline.ΦA spec0 c
  q _ := fullShare
  owed _ := 0

theorem A_eq (c : Dev nD) (w : Fin cfg0.W) : (rdat m c).A w = V m c (Pipeline.arrRef spec0 w) := by
  dsimp only [rdat]

/-- What the body finds in input window 0 (X) at any point is X's one block, the whole array. -/
theorem finds0_0 (c : Dev nD) (t : Fin cfg0.N) (Y) (h : (rdat m c).Finds 0 t Y) : Y = iblk m c 0 t := by
  obtain ⟨d, rfl⟩ := (rdat m c).finds_in_eq_fetched 0 rfl (fun _ _ _ => rfl) (fun _ _ _ h => h) t Y h
  unfold RDat.fetched RDat.blockOf iblk; rw [A_eq]; try rfl
/-- What it finds in input window 1 at any point is the tile of A of that point's row tile, fetched there or not. -/
theorem finds0_1 (c : Dev nD) (t : Fin cfg0.N) (Y) (h : (rdat m c).Finds 1 t Y) : Y = iblk m c 1 t := by
  obtain ⟨d, rfl⟩ := (rdat m c).finds_in_eq_fetched 1 rfl (fun _ _ _ => rfl) (fun _ _ _ h => h) t Y h
  unfold RDat.fetched RDat.blockOf iblk; rw [A_eq]; try rfl
/-- Window 2 (W): its one block. -/
theorem finds0_2 (c : Dev nD) (t : Fin cfg0.N) (Y) (h : (rdat m c).Finds 2 t Y) : Y = iblk m c 2 t := by
  obtain ⟨d, rfl⟩ := (rdat m c).finds_in_eq_fetched 2 rfl (fun _ _ _ => rfl) (fun _ _ _ h => h) t Y h
  unfold RDat.fetched RDat.blockOf iblk; rw [A_eq]; try rfl
/-- Window 3 (the bias row): its one block. -/
theorem finds0_3 (c : Dev nD) (t : Fin cfg0.N) (Y) (h : (rdat m c).Finds 3 t Y) : Y = iblk m c 3 t := by
  obtain ⟨d, rfl⟩ := (rdat m c).finds_in_eq_fetched 3 rfl (fun _ _ _ => rfl) (fun _ _ _ h => h) t Y h
  unfold RDat.fetched RDat.blockOf iblk; rw [A_eq]; try rfl

/-- What the body is called with at point `t`, the inputs at their blocks and the output block at contents `Y4`, -/
def bodyPre (c : Dev nD) (t : Fin cfg0.N) (Y4 : S400x128.Idx → Elt F .f32) : sProp 𝕄 :=
  iprop((rdat m c).Φ t.castSucc ∗ (rdat m c).owesAt () t.castSucc
    ∗ owns (c : Thread nD τ) (st0_0 t) fullShare (iblk m c 0 t)
    ∗ owns (c : Thread nD τ) (st0_1 t) fullShare (iblk m c 1 t)
    ∗ owns (c : Thread nD τ) (st0_2 t) fullShare (iblk m c 2 t)
    ∗ owns (c : Thread nD τ) (st0_3 t) fullShare (iblk m c 3 t)
    ∗ owns (c : Thread nD τ) (st0_4 t) fullShare Y4)

/-- and what it returns. -/
def bodyPost (c : Dev nD) (t : Fin cfg0.N) (Y4 : S400x128.Idx → Elt F .f32) : sProp 𝕄 :=
  iprop((rdat m c).Φ t.succ ∗ (rdat m c).owesAt () t.succ
    ∗ (∃ X, ⌜X = iblk m c 0 t⌝ ∗ owns (c : Thread nD τ) (st0_0 t) fullShare X)
    ∗ (∃ X, ⌜X = iblk m c 1 t⌝ ∗ owns (c : Thread nD τ) (st0_1 t) fullShare X)
    ∗ (∃ X, ⌜X = iblk m c 2 t⌝ ∗ owns (c : Thread nD τ) (st0_2 t) fullShare X)
    ∗ (∃ X, ⌜X = iblk m c 3 t⌝ ∗ owns (c : Thread nD τ) (st0_3 t) fullShare X)
    ∗ (∃ X, ⌜stepAt m c t Y4 X⌝ ∗ owns (c : Thread nD τ) (st0_4 t) fullShare X))

/-- The body at any point: the step's triple applies; the invariant passes through unread; nothing is owed. -/
theorem sound_body (c : Dev nD) (t : Fin cfg0.N) (Y4 : S400x128.Idx → Elt F .f32) :
    bodyPre m c t Y4 ⊢ wp frame (wpE (defs₀ (F := F)) Variants.none c none) Set.univ (bodyAt0 t) (fun _ => bodyPost m c t Y4) := by
  unfold bodyPre bodyPost bodyAt0
  rw [show (rdat m c).Φ t.succ = (rdat m c).Φ t.castSucc from rfl,
    show (rdat m c).owesAt () t.succ = (rdat m c).owesAt () t.castSucc from rfl]
  iintro ⟨HΦ, Ho, H0, H1, H2, H3, H4⟩
  iapply ((step_run c (grid0.coords t) _ _ _ _ _ _ _ _ _ _ (iblk m c 0 t) (iblk m c 1 t) (iblk m c 2 t) (iblk m c 3 t) Y4) Set.univ _)
  isplitl [H0]; · iexact H0
  isplitl [H1]; · iexact H1
  isplitl [H2]; · iexact H2
  isplitl [H3]; · iexact H3
  isplitl [H4]; · iexact H4
  iintro ⟨H0, H1, H2, H3, ⟨%X, %hX, H4⟩⟩
  isplitl [HΦ]; · iexact HΦ
  isplitl [Ho]; · iexact Ho
  isplitl [H0]
  · iexists _; isplitr; · ipureintro; rfl
    iexact H0
  isplitl [H1]
  · iexists _; isplitr; · ipureintro; rfl
    iexact H1
  isplitl [H2]
  · iexists _; isplitr; · ipureintro; rfl
    iexact H2
  isplitl [H3]
  · iexists _; isplitr; · ipureintro; rfl
    iexact H3
  iexists X; isplitr; · ipureintro; exact hX
  iexact H4

/-- The library's body obligation for the relational data, at every point and whatever the buffers may then hold. -/
theorem body_obligation (c : Dev nD) : (rdat (F := F) m c).BodyObligation (defs₀ (F := F)) Variants.none () Set.univ := fun t Y hY => by
  rw [bigSep_W0, bigSep_W0]
  have h0 := finds0_0 m c t (Y 0) (hY 0)
  have h1 := finds0_1 m c t (Y 1) (hY 1)
  have h2 := finds0_2 m c t (Y 2) (hY 2)
  have h3 := finds0_3 m c t (Y 3) (hY 3)
  rw [h0, h1, h2, h3]
  exact sound_body m c t (Y 4)

-- the launch theorem's implicit arguments are found by unifying its conclusion with this one, which takes unfolding plain
-- definitions in a metavariable's type
set_option backward.isDefEq.respectTransparency.types false in
/-- Every weakly fair execution of @main terminates; each array a window stages ends at contents the relational data
    allow after every write-back, every other unscoped buffer as the region found it. -/
theorem run_main : θ_run defs (onTc (τ := τ) (main (F := F))) (s₀ m ρ) (Pipeline.RDat.FramePost (cfgs 0) (fun c => rdat m c) (V m)) :=
  Pipeline.RDat.θ_run_frame cfgs (0 : Fin 1) launch0 defs₀ Variants.none (fun c => rdat m c) m ρ main
    (hbody := fun c => body_obligation m c) (hshare := fun c => (rdat m c).share_full fun _ => rfl)
    (howed := fun _ _ => rfl) (V := V m) (hmain := hmain m Variants.none) (hA := A_eq m) (hΦ := fun _ _ => rfl)

/-- The frame: the four argument arrays end as launched — three are staged inputs, never written; the bias is no
    window's array and bypasses the region. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨(Eq.mp (congrFun ((rdat m c).ArrAt_in 0 rfl _) _) ((h c).1 0)).trans ((A_eq m c 0).trans (V_main_arg0 m c)),
     (Eq.mp (congrFun ((rdat m c).ArrAt_in 1 rfl _) _) ((h c).1 1)).trans ((A_eq m c 1).trans (V_main_arg1 m c)),
     (Eq.mp (congrFun ((rdat m c).ArrAt_in 2 rfl _) _) ((h c).1 2)).trans ((A_eq m c 2).trans (V_main_arg2 m c)),
     ((h c).2 main_arg3 (Pipeline.mem_restRefs_of main_arg3 (by decide) (by decide))).trans (V_main_arg3 m c)⟩) (run_main m ρ)

end Cert.KernelIdeal.Hand

end
-- ==== Proof.LibPlainMatmul.lean ====
/-
  A matrix product of an M × K by a K × N matrix into a zero accumulator, read at one entry on the extended
  reals: entry (i, j) is Σ_k lhs (i, k) · rhs (k, j). No rounding and no order of accumulation is left in it.
-/
import Idealize.ShloMosaic.PureOps.Ideal.Laws
import Idealize.ShloMosaic.Lib.ValueIdx

noncomputable section

namespace Cert.PlainMatmul

open Idealize.ShloMosaic Idealize.ShloMosaic.ValueIdx

/-- Entry (i, j) of the product of `lhs` (M × K) and `rhs` (K × N) accumulated into zeros. -/
theorem matmul_zero_apply (M K N : Nat) {φ₁ φ₂ : FTy} (prec : Option ContractPrecision)
    (lhs : FVec Ideal ⟨2, ![M, K]⟩ φ₁) (rhs : FVec Ideal ⟨2, ![K, N]⟩ φ₂) (i : Fin M) (j : Fin N) :
    FloatOps.matmul (DotDims.plain M K N) prec lhs rhs (constant ⟨2, ![M, N]⟩ .f32 0x00000000#32) (ix2 i j)
      = ∑ k : Fin K, lhs (ix2 i k) * rhs (ix2 k j) := by
  rw [Ideal.matmul_constant_zero_apply, ← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 i j) ((contrEquiv1 (DotDims.plain M K N) K rfl rfl).symm k) = ix2 i k :=
    funext fun a => Fin.ext (by
      match a with
      | ⟨0, _⟩ => rfl
      | ⟨1, _⟩ => exact ((DotDims.plain M K N).lhsIdx_val_of_single rfl _ _).trans hk)
  have er : (DotDims.plain M K N).rhsIdx (ix2 i j) ((contrEquiv1 (DotDims.plain M K N) K rfl rfl).symm k) = ix2 k j :=
    funext fun a => Fin.ext (by
      match a with
      | ⟨0, _⟩ => exact ((DotDims.plain M K N).rhsIdx_val_of_single rfl _ _).trans hk
      | ⟨1, _⟩ => rfl)
  rw [el, er]

end Cert.PlainMatmul

end
-- ==== Proof.LayerSpec.lean ====
/-
  The graph-convolution layer as ONE function of its four arrays, on the extended reals:

      Z (r, c) = Σ_j (Σ_k A (r, k) · X (k, j)) · W (j, c) + b (c),      r < 10000, c < 128,

  the product A·X formed first and then multiplied by W, exactly as both programs associate it; and the same
  expression for a BAND of rows: a 200 × 10000 band of A against the whole X, then W, then the bias row laid down the
  band — what one step of the kernel computes — read at one entry. Nothing here needs the entries to be finite: no
  sum is regrouped, no factor moved.
-/
import Idealize.ShloMosaic.PureOps.Ideal.Laws
import Idealize.ShloMosaic.Lib.ValueIdx
import Idealize.ShloMosaic.Lib.Pipeline.Value
import Idealize.ShloMosaic.Lib.ValueLayout
import proofs.«159365_g70858370449879_cont_9to1_m_1099_15_alg».proof.Proof.LibPlainMatmul

noncomputable section

open scoped BigOperators

namespace Cert.LayerSpec

open Idealize.ShloMosaic Idealize.ShloMosaic.ValueIdx

/-- Entry (r, c) of the layer: row r of A against X, the resulting row against column c of W, plus b (c). -/
def layerAt (X : FVec Ideal ⟨2, ![10000, 128]⟩ .f32) (A : FVec Ideal ⟨2, ![10000, 10000]⟩ .f32)
    (W : FVec Ideal ⟨2, ![128, 128]⟩ .f32) (b : FVec Ideal ⟨1, ![128]⟩ .f32) (r : Fin 10000) (c : Fin 128) : EReal :=
  (∑ j : Fin 128, (∑ k : Fin 10000, A (ix2 r k) * X (ix2 k j)) * W (ix2 j c)) + b (ix1 c)

/-- The layer's whole result. -/
def layer (X : FVec Ideal ⟨2, ![10000, 128]⟩ .f32) (A : FVec Ideal ⟨2, ![10000, 10000]⟩ .f32)
    (W : FVec Ideal ⟨2, ![128, 128]⟩ .f32) (b : FVec Ideal ⟨1, ![128]⟩ .f32) : FVec Ideal ⟨2, ![10000, 128]⟩ .f32 :=
  fun i => layerAt X A W b (i 0) (i 1)

/-- A band of 200 rows through the two products and the bias row, read at entry (p, c) of the band: the band's row p
    against X, that row against column c of W, plus the bias row's entry c. -/
theorem band_apply (rows : FVec Ideal ⟨2, ![200, 10000]⟩ .f32) (X : FVec Ideal ⟨2, ![10000, 128]⟩ .f32)
    (W : FVec Ideal ⟨2, ![128, 128]⟩ .f32) (brow : FVec Ideal ⟨2, ![1, 128]⟩ .f32)
    (h1 : (⟨2, ![1, 128]⟩ : Shape).ShapeCasts ⟨2, ![1, 128]⟩) (h2 : (⟨2, ![1, 128]⟩ : Shape).Broadcasts ⟨2, ![200, 128]⟩)
    (p : Fin 200) (c : Fin 128) :
    addf (matmul (DotDims.plain 200 128 128) none
        (matmul (DotDims.plain 200 10000 128) none rows X (constant ⟨2, ![200, 128]⟩ .f32 0x00000000#32)) W
        (constant ⟨2, ![200, 128]⟩ .f32 0x00000000#32))
      (broadcastTo ⟨2, ![200, 128]⟩ (shapeCast ⟨2, ![1, 128]⟩ brow h1) h2) (ix2 p c)
    = (∑ j : Fin 128, (∑ k : Fin 10000, rows (ix2 p k) * X (ix2 k j)) * W (ix2 j c)) + brow (ix2 (0 : Fin 1) c) := by
  rw [addf_apply, shapeCast_self, broadcastTo_1b_ab_apply]
  congr 1
  refine (Cert.PlainMatmul.matmul_zero_apply 200 128 128 none _ W p c).trans ?_
  refine Finset.sum_congr rfl fun j _ => ?_
  congr 1
  exact Cert.PlainMatmul.matmul_zero_apply 200 10000 128 none rows X p j

end Cert.LayerSpec

end
-- ==== Proof.LibRelArrAt.lean ====
/-
  What an output array holds after a pipelined run whose proof data CONSTRAIN, rather than name, what the body
  leaves in the staging buffer (relational proof data): if whatever the body may leave at a flushing point, cut to the
  part written back, is that point's block of ONE whole-array contents `G`, then after the write-backs below `n`
  every element under a flushed block reads `G` — a later point covering it again writes the same value, an earlier
  one is overwritten — and when the flushed blocks cover the array, the array ends holding `G`. The relational
  counterpart of the cover lemma for exact proof data; general in the configuration, the window and the values.
-/
import Idealize.ShloMosaic.Lib.Pipeline.Value

noncomputable section

namespace Idealize.ShloMosaic

open Idealize.SL
open Idealize.SL.BI (sProp)
open scoped Idealize.SL.BI
open Idealize.SL.Sem Idealize.SL.RA

namespace Pipeline

open TcCoe

variable {nD : Nat} {τ : Topo} {sig : RefSig} {Val : EltTy → Type}
variable {Ix : Type} [DecidableEq Ix] {Name : Type} [DecidableEq Name] {U : Type} [URA U] {Lvl : Type}
variable {Λ₀ : SL.Sem.Labels} {cfg : Cfg sig Λ₀} {c : Dev nD} (rd : RDat τ Val Ix Name U Lvl cfg c)

/-- An element under a block flushed below `n` reads `G` in any contents the array may hold after the write-backs
    below `n`, when every flushing point may only leave its block of `G` (`hG`). -/
theorem RDat.arrAt_apply_of_mem (w : Fin cfg.W) (G : Buf Val ((cfg.win w).arr.view.loc (c.tc : Thread nD τ)))
    (hG : ∀ t, (cfg.win w).flush t = true → ∀ X, rd.Leaves w t X →
      (cfg.win w).cut (cfg.grid.coords t) X = ((cfg.win w).blk t).view.read Val G) :
    ∀ (n : Nat) (F : Buf Val ((cfg.win w).arr.view.loc (c.tc : Thread nD τ))), rd.ArrAt w n F →
      ∀ (t : Fin cfg.N) (i : ((cfg.win w).arr.view.loc (c.tc : Thread nD τ)).2.ty.Idx),
        t.val < n → (cfg.win w).flush t = true → i ∈ ((cfg.win w).blk t).view.set → F i = G i
  | 0, _, _, _, _, ht, _, _ => absurd ht (Nat.not_lt_zero _)
  | n + 1, F, hF, t, i, ht, hf, hi => by
    by_cases hn : n < cfg.N
    swap
    · -- past the grid nothing is written back: the array may hold what it might below `n`
      rw [rd.ArrAt_stable w (n + 1) (by omega), ← rd.ArrAt_stable w n (by omega)] at hF
      exact RDat.arrAt_apply_of_mem w G hG n F hF t i (by have := t.isLt; omega) hf hi
    have hs := rd.ArrAt_succ w ⟨n, hn⟩
    rw [show (⟨n, hn⟩ : Fin cfg.N).val + 1 = n + 1 from rfl] at hs
    rw [hs] at hF
    by_cases hfn : (cfg.win w).flush ⟨n, hn⟩ = true
    · rw [if_pos hfn] at hF
      obtain ⟨G₀, X, hG₀, hL, rfl⟩ := hF
      rw [hG _ hfn X hL, View.write_read_eq_piecewise]
      by_cases hin : i ∈ ((cfg.win w).blk ⟨n, hn⟩).view.setOn Finset.univ
      · rw [Finset.piecewise_eq_of_mem _ _ _ hin]
      · rw [Finset.piecewise_eq_of_notMem _ _ _ hin]
        have htn : t.val ≠ n := fun e => hin (by rw [View.setOn_univ]; have : t = ⟨n, hn⟩ := Fin.ext e; exact this ▸ hi)
        exact RDat.arrAt_apply_of_mem w G hG n G₀ hG₀ t i (by omega) hf hi
    · rw [if_neg hfn] at hF
      have htn : t.val ≠ n := fun e => hfn (by have : t = ⟨n, hn⟩ := Fin.ext e; exact this ▸ hf)
      exact RDat.arrAt_apply_of_mem w G hG n F hF t i (by omega) hf hi

/-- When the flushed blocks cover the array, any contents it may hold after the whole run is `G`. -/
theorem RDat.arrAt_eq_of_cover (w : Fin cfg.W) (G : Buf Val ((cfg.win w).arr.view.loc (c.tc : Thread nD τ)))
    (hG : ∀ t, (cfg.win w).flush t = true → ∀ X, rd.Leaves w t X →
      (cfg.win w).cut (cfg.grid.coords t) X = ((cfg.win w).blk t).view.read Val G)
    (hcover : ∀ i : ((cfg.win w).arr.view.loc (c.tc : Thread nD τ)).2.ty.Idx,
      ∃ t : Fin cfg.N, (cfg.win w).flush t = true ∧ i ∈ ((cfg.win w).blk t).view.set)
    (F : Buf Val ((cfg.win w).arr.view.loc (c.tc : Thread nD τ))) (hF : rd.ArrAt w cfg.N F) : F = G :=
  funext fun i => by
    obtain ⟨t, hf, hi⟩ := hcover i
    exact rd.arrAt_apply_of_mem w G hG cfg.N F hF t i t.isLt hf hi

end Pipeline

end Idealize.ShloMosaic

end
-- ==== Proof.KernelIdealValue.lean ====
/-
  What the kernel's output array holds after the run, on the extended reals: the layer of the four argument arrays.

  Point t of the grid is row tile t / 2, half t % 2. Its step stores, into rows [200·(t % 2), 200·(t % 2) + 200) of the
  staged output block, the rows 400·(t / 2) + 200·(t % 2) + p (p < 200) of the layer: the band of A it reads is those
  rows of A, X and W are staged whole, and the staged bias row is b re-laid as 1 × 128. A tile's block is written back
  after its second step only; that step found the block as the first step left it, so rows [0, 200) are the first
  step's and rows [200, 400) its own: the block written back is rows [400·(t / 2), 400·(t / 2) + 400) of the layer, whatever
  the buffer held before the first step. The 25 written-back blocks tile the 10000 rows, so the array ends at the layer.
-/
import proofs.«159365_g70858370449879_cont_9to1_m_1099_15_alg».proof.Proof.KernelIdealRun
import proofs.«159365_g70858370449879_cont_9to1_m_1099_15_alg».proof.Proof.LayerSpec
import proofs.«159365_g70858370449879_cont_9to1_m_1099_15_alg».proof.Proof.LibRelArrAt
import Idealize.ShloMosaic.Lib.StableHlo.Run

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)

open Idealize.ShloMosaic.ValueIdx

open scoped BigOperators

variable (m : (ℓ : Loc nD τ sig) → Buf (Elt Ideal) ℓ) (ρ : Dev nD → PrngReg)

/-- The layer of the launch contents of the four arguments on core `c`. -/
def layerOf (c : Dev nD) : S10000x128.Idx → Elt Ideal .f32 :=
  Cert.LayerSpec.layer (m ((c : Thread nD τ).loc main_arg0)) (m ((c : Thread nD τ).loc main_arg1))
    (m ((c : Thread nD τ).loc main_arg2)) (m ((c : Thread nD τ).loc main_arg3))

/-- The schedule in closed form, decided over the 50 points: the tile of A and the output block move with t / 2, the
    other windows stay at block 0, and the step's row offsets are 200·(t % 2). -/
theorem grid_facts : ∀ t : Fin cfg0.N,
    win0_4.index t (0 : Fin 2) = t.val / 2 ∧ win0_4.index t (1 : Fin 2) = 0
    ∧ win0_1.index t (0 : Fin 2) = t.val / 2 ∧ win0_1.index t (1 : Fin 2) = 0
    ∧ win0_0.index t (0 : Fin 2) = 0 ∧ win0_0.index t (1 : Fin 2) = 0
    ∧ win0_2.index t (0 : Fin 2) = 0 ∧ win0_2.index t (1 : Fin 2) = 0
    ∧ win0_3.index t (0 : Fin 2) = 0 ∧ win0_3.index t (1 : Fin 2) = 0
    ∧ k0_off1 (grid0.coords t) (0 : Fin 2) = 200 * (t.val % 2) ∧ k0_off1 (grid0.coords t) (1 : Fin 2) = 0
    ∧ k0_off2 (grid0.coords t) (0 : Fin 2) = 200 * (t.val % 2) :=
  (by decide +kernel : ∀ t : Fin grid0.N, _)

/-- The output window is never fetched. -/
theorem fetch0_4 : ∀ t : Fin cfg0.N, (cfg0.win 4).fetch t = false :=
  (by decide +kernel : ∀ t : Fin grid0.N, win0_4.fetch t = false)

theorem lt_fifty (t : Fin cfg0.N) : t.val < 50 := by
  exact Nat.lt_of_lt_of_eq t.isLt N_0

/-- The row of the layer that row `p` of point `t`'s band is. -/
def rowOf (t : Fin cfg0.N) (p : Fin 200) : Fin 10000 :=
  ⟨400 * (t.val / 2) + 200 * (t.val % 2) + p.val, by have := lt_fifty t; have := p.isLt; omega⟩

/-- The staged bias row is the bias re-laid as one row: the region finds `main_call0_v0` as the reshape left it. -/
theorem V_bias (c : Dev nD) : (V m c main_call0_v0 : S1x128.Idx → Elt Ideal .f32)
    = shapeCast S1x128 (m ((c : Thread nD τ).loc main_arg3)) shapeCasts_S128_S1x128 := by
  dsimp only [V, hostOps0]; after_results; rfl

/-- Entry (0, q) of the staged bias row is b (q). -/
theorem bias_apply (c : Dev nD) (t : Fin cfg0.N) (q : Fin 128) :
    iblk m c 3 t (ix2 (0 : Fin 1) q) = m ((c : Thread nD τ).loc main_arg3) (ix1 q) := by
  obtain ⟨-, -, -, -, -, -, -, -, e0, e1, -⟩ := grid_facts t
  unfold iblk
  rw [View.read_apply]
  show V m c main_call0_v0 (((cfg0.win 3).blk t).view.emb (ix2 (0 : Fin 1) q)) = _
  rw [V_bias]
  refine shapeCast_apply _ _ _ (ix1 q) ?_
  rw [Shape.rowMajor_val_two, Shape.rowMajor_val_one]
  show q.val = (win0_3.index t (0 : Fin 2) * 1 + 1 * (0 : Fin 1).val) * 128 + (win0_3.index t (1 : Fin 2) * 128 + 1 * q.val)
  rw [e0, e1]; simp

/-- X is staged whole: entry (k, j) of its block is X (k, j). -/
theorem X_apply (c : Dev nD) (t : Fin cfg0.N) (k : Fin 10000) (j : Fin 128) :
    iblk m c 0 t (ix2 k j) = m ((c : Thread nD τ).loc main_arg0) (ix2 k j) := by
  obtain ⟨-, -, -, -, e0, e1, -⟩ := grid_facts t
  unfold iblk
  rw [View.read_apply]
  show V m c main_arg0 (((cfg0.win 0).blk t).view.emb (ix2 k j)) = _
  rw [V_main_arg0]
  refine congrArg _ (funext fun a => Fin.ext ?_)
  match a with
  | ⟨0, _⟩ => show win0_0.index t (0 : Fin 2) * 10000 + 1 * k.val = k.val; rw [e0]; omega
  | ⟨1, _⟩ => show win0_0.index t (1 : Fin 2) * 128 + 1 * j.val = j.val; rw [e1]; omega

/-- W is staged whole: entry (j, q) of its block is W (j, q). -/
theorem W_apply (c : Dev nD) (t : Fin cfg0.N) (j : Fin 128) (q : Fin 128) :
    iblk m c 2 t (ix2 j q) = m ((c : Thread nD τ).loc main_arg2) (ix2 j q) := by
  obtain ⟨-, -, -, -, -, -, e0, e1, -⟩ := grid_facts t
  unfold iblk
  rw [View.read_apply]
  show V m c main_arg2 (((cfg0.win 2).blk t).view.emb (ix2 j q)) = _
  rw [V_main_arg2]
  refine congrArg _ (funext fun a => Fin.ext ?_)
  match a with
  | ⟨0, _⟩ => show win0_2.index t (0 : Fin 2) * 128 + 1 * j.val = j.val; rw [e0]; omega
  | ⟨1, _⟩ => show win0_2.index t (1 : Fin 2) * 128 + 1 * q.val = q.val; rw [e1]; omega

/-- Row p of the band point `t` reads is row `rowOf t p` of A. -/
theorem band_apply (c : Dev nD) (t : Fin cfg0.N) (p : Fin 200) (k : Fin 10000) :
    band (grid0.coords t) (iblk m c 1 t) (ix2 p k) = m ((c : Thread nD τ).loc main_arg1) (ix2 (rowOf t p) k) := by
  obtain ⟨-, -, e0, e1, -, -, -, -, -, -, o0, o1, -⟩ := grid_facts t
  unfold band iblk
  show ((cfg0.win 1).blk t).view.read (Elt Ideal) (V m c main_arg1)
      ((Rect.unit (s := S400x10000) (k0_off1 (grid0.coords t)) S200x10000.size (k0_off1_inb (grid0.coords t))).emb (ix2 p k)) = _
  rw [View.read_apply]
  show V m c main_arg1 (((cfg0.win 1).blk t).view.emb _) = _
  rw [V_main_arg1]
  refine congrArg _ (funext fun a => Fin.ext ?_)
  match a with
  | ⟨0, _⟩ =>
    show win0_1.index t (0 : Fin 2) * 400 + 1 * (k0_off1 (grid0.coords t) (0 : Fin 2) + 1 * p.val) = 400 * (t.val / 2) + 200 * (t.val % 2) + p.val
    rw [e0, o0]; omega
  | ⟨1, _⟩ =>
    show win0_1.index t (1 : Fin 2) * 10000 + 1 * (k0_off1 (grid0.coords t) (1 : Fin 2) + 1 * k.val) = k.val
    rw [e1, o1]; omega

/-- The step's payload at entry (p, q) is the layer at row `rowOf t p`, column q. -/
theorem pay_apply (c : Dev nD) (t : Fin cfg0.N) (p : Fin 200) (q : Fin 128) :
    stepPay (grid0.coords t) (iblk m c 0 t) (iblk m c 1 t) (iblk m c 2 t) (iblk m c 3 t) (ix2 p q)
      = Cert.LayerSpec.layerAt (m ((c : Thread nD τ).loc main_arg0)) (m ((c : Thread nD τ).loc main_arg1))
          (m ((c : Thread nD τ).loc main_arg2)) (m ((c : Thread nD τ).loc main_arg3)) (rowOf t p) q := by
  unfold stepPay k0_pay1
  refine (Cert.LayerSpec.band_apply (band (grid0.coords t) (iblk m c 1 t)) (iblk m c 0 t) (iblk m c 2 t) (iblk m c 3 t)
    shapeCasts_S1x128_S1x128 broadcasts_S1x128_S200x128 p q).trans ?_
  unfold Cert.LayerSpec.layerAt
  simp only [bias_apply, W_apply, band_apply, X_apply]

/-- An index of the output array is in point `t`'s block iff each coordinate is in the block's range. -/
theorem mem_blk4 (t : Fin cfg0.N) (i : S10000x128.Idx) :
    i ∈ ((cfg0.win 4).blk t).view.set ↔ ∀ a : Fin 2, win0_4.index t a * S400x128.size a ≤ (i a).val
      ∧ (i a).val < win0_4.index t a * S400x128.size a + S400x128.size a := by
  show i ∈ ((View.whole main_v0).slice (win0_4.rect t)).set ↔ _
  rw [View.set_slice_whole, Rect.mem_set_unit]
  exact Iff.rfl

/-- What a flushing point may leave in the output block is its block of the layer: the band the step before it stored
    and its own. -/
theorem leaves_block (c : Dev nD) (t : Fin cfg0.N) (hf : (cfg0.win 4).flush t = true) (X) (hL : (rdat m c).Leaves 4 t X) :
    (cfg0.win 4).cut (cfg0.grid.coords t) X = ((cfg0.win 4).blk t).view.read (Elt Ideal) (layerOf m c) := by
  have hodd : t.val % 2 = 1 := (flush0_4 t).mp hf
  have ht0 : t.val ≠ 0 := by omega
  obtain ⟨Y, hY, hR⟩ := hL
  have hR : stepAt m c t Y X := hR
  rw [(rdat m c).finds_of_pos (fetch0_4 t) ht0] at hY
  rcases hY with hfl | ⟨Y0, -, hR0⟩
  · have := (flush0_4 _).mp hfl
    have hv : (⟨t.val - 1, Nat.lt_of_le_of_lt (Nat.sub_le _ _) t.isLt⟩ : Fin cfg0.N).val = t.val - 1 := rfl
    omega
  have hR0 : stepAt m c ⟨t.val - 1, Nat.lt_of_le_of_lt (Nat.sub_le _ _) t.isLt⟩ Y0 Y := hR0
  obtain ⟨e0, e1, -, -, -, -, -, -, -, -, -, -, o2⟩ := grid_facts t
  obtain ⟨-, -, -, -, -, -, -, -, -, -, -, -, o2'⟩ := grid_facts ⟨t.val - 1, Nat.lt_of_le_of_lt (Nat.sub_le _ _) t.isLt⟩
  unfold stepAt at hR hR0
  rw [o2] at hR
  rw [o2'] at hR0
  funext y
  rw [View.read_apply]
  show X y = layerOf m c (((cfg0.win 4).blk t).view.emb y)
  have hy0 : (y (0 : Fin 2)).val < 400 := (y (0 : Fin 2)).isLt
  have hy1 : (y (1 : Fin 2)).val < 128 := (y (1 : Fin 2)).isLt
  have hemb0 : ((((cfg0.win 4).blk t).view.emb y) (0 : Fin 2)).val = 400 * (t.val / 2) + (y (0 : Fin 2)).val := by
    show win0_4.index t (0 : Fin 2) * 400 + 1 * (y (0 : Fin 2)).val = _
    rw [e0]; omega
  have hemb1 : ((((cfg0.win 4).blk t).view.emb y) (1 : Fin 2)).val = (y (1 : Fin 2)).val := by
    show win0_4.index t (1 : Fin 2) * 128 + 1 * (y (1 : Fin 2)).val = _
    rw [e1]; omega
  unfold layerOf Cert.LayerSpec.layer
  by_cases hlow : (y (0 : Fin 2)).val < 200
  · -- a row of the first band: this step left it as found, the step before stored it
    rw [hR.2 y (Or.inl (by show (y (0 : Fin 2)).val < 200 * (t.val % 2); omega)),
      hR0.1 y (ix2 (⟨(y (0 : Fin 2)).val, hlow⟩ : Fin 200) (⟨(y (1 : Fin 2)).val, hy1⟩ : Fin 128))
        (by show (y (0 : Fin 2)).val = 200 * ((t.val - 1) % 2) + (y (0 : Fin 2)).val; omega) rfl,
      pay_apply]
    congr 1
    · exact Fin.ext (by show 400 * ((t.val - 1) / 2) + 200 * ((t.val - 1) % 2) + (y (0 : Fin 2)).val = _; rw [hemb0]; omega)
    · exact Fin.ext (by show (y (1 : Fin 2)).val = _; rw [hemb1])
  · -- a row of the second band: this step stored it
    rw [hR.1 y (ix2 (⟨(y (0 : Fin 2)).val - 200, by omega⟩ : Fin 200) (⟨(y (1 : Fin 2)).val, hy1⟩ : Fin 128))
        (by show (y (0 : Fin 2)).val = 200 * (t.val % 2) + ((y (0 : Fin 2)).val - 200); omega) rfl,
      pay_apply]
    congr 1
    · exact Fin.ext (by show 400 * (t.val / 2) + 200 * (t.val % 2) + ((y (0 : Fin 2)).val - 200) = _; rw [hemb0]; omega)
    · exact Fin.ext (by show (y (1 : Fin 2)).val = _; rw [hemb1])

/-- Every row of the array is in the block written back after the second step of its tile. -/
theorem covered (i : S10000x128.Idx) :
    ∃ t : Fin cfg0.N, (cfg0.win 4).flush t = true ∧ i ∈ ((cfg0.win 4).blk t).view.set := by
  have hi0 : (i (0 : Fin 2)).val < 10000 := (i (0 : Fin 2)).isLt
  have hi1 : (i (1 : Fin 2)).val < 128 := (i (1 : Fin 2)).isLt
  have hN : 2 * ((i (0 : Fin 2)).val / 400) + 1 < cfg0.N := by rw [show cfg0.N = 50 from N_0]; omega
  refine ⟨⟨2 * ((i (0 : Fin 2)).val / 400) + 1, hN⟩, (flush0_4 _).mpr (by show (2 * ((i (0 : Fin 2)).val / 400) + 1) % 2 = 1; omega), ?_⟩
  obtain ⟨e0, e1, -⟩ := grid_facts ⟨2 * ((i (0 : Fin 2)).val / 400) + 1, hN⟩
  rw [mem_blk4]
  intro a
  match a with
  | ⟨0, _⟩ =>
    show win0_4.index _ (0 : Fin 2) * 400 ≤ (i (0 : Fin 2)).val ∧ (i (0 : Fin 2)).val < win0_4.index _ (0 : Fin 2) * 400 + 400
    rw [e0]; show (2 * ((i (0 : Fin 2)).val / 400) + 1) / 2 * 400 ≤ _ ∧ _ < (2 * ((i (0 : Fin 2)).val / 400) + 1) / 2 * 400 + 400; omega
  | ⟨1, _⟩ =>
    show win0_4.index _ (1 : Fin 2) * 128 ≤ (i (1 : Fin 2)).val ∧ (i (1 : Fin 2)).val < win0_4.index _ (1 : Fin 2) * 128 + 128
    rw [e1]; omega

/-- Any contents the output array may hold after the run is the layer. -/
theorem final_out (c : Dev nD) (G) (h : (rdat m c).ArrAt 4 cfg0.N G) : G = layerOf m c :=
  (rdat m c).arrAt_eq_of_cover 4 (layerOf m c) (leaves_block m c) covered G h

/-- The run, read: the result array ends at the layer of the arguments, the arguments unchanged. -/
theorem run_value : θ_run defs (onTc (τ := τ) (main (F := Ideal))) ⟨m, fun _ => 0, ρ⟩ (fun r => ∀ c : Dev nD,
      r.2.mem ((c.tc : Thread nD τ).loc main_v0) = layerOf m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c =>
    ⟨final_out m c _ ((h c).1 4),
     (Eq.mp (congrFun ((rdat m c).ArrAt_in 0 rfl _) _) ((h c).1 0)).trans ((A_eq m c 0).trans (V_main_arg0 m c)),
     (Eq.mp (congrFun ((rdat m c).ArrAt_in 1 rfl _) _) ((h c).1 1)).trans ((A_eq m c 1).trans (V_main_arg1 m c)),
     (Eq.mp (congrFun ((rdat m c).ArrAt_in 2 rfl _) _) ((h c).1 2)).trans ((A_eq m c 2).trans (V_main_arg2 m c)),
     ((h c).2 main_arg3 (Pipeline.mem_restRefs_of main_arg3 (by decide) (by decide))).trans (V_main_arg3 m c)⟩) (run_main m ρ)

end Cert.KernelIdeal.Hand

end
-- ==== Proof.RefSide.lean ====
/-
  The reference computes the layer: its five host operations — A·X, then ·W, the bias laid out as a row and down the
  rows, the sum — composed and read at an entry (r, c) are Σ_j (Σ_k A (r, k) · X (k, j)) · W (j, c) + b (c), which is
  `LayerSpec.layer` word for word once the reading lemmas' index functions are written by coordinates.
-/
import proofs.«159365_g70858370449879_cont_9to1_m_1099_15_alg».proof.Proof.Gen.ReferenceIdeal.Read
import proofs.«159365_g70858370449879_cont_9to1_m_1099_15_alg».proof.Proof.LayerSpec

noncomputable section

open scoped BigOperators

namespace Cert.ReferenceIdeal.RefValue

open Cert.ReferenceIdeal Cert.ReferenceIdeal.Read Idealize.ShloMosaic Idealize.ShloMosaic.ValueIdx

/-- Row r of A·X comes from row r of A: the left index of the inner product, by coordinates. -/
theorem lidx_inner (i : S10000x128.Idx) (j : Fin 128) (k : Fin 10000) :
    lidx_main_v0 (lidx_main_v1 i j) k = (ix2 (i 0) k : S10000x10000.Idx) := by
  funext a; match a with | ⟨0, _⟩ => rfl | ⟨1, _⟩ => rfl

/-- Column j of A·X comes from column j of X. -/
theorem ridx_inner (i : S10000x128.Idx) (j : Fin 128) (k : Fin 10000) :
    ridx_main_v0 (lidx_main_v1 i j) k = (ix2 k j : S10000x128.Idx) := by
  funext a; match a with | ⟨0, _⟩ => rfl | ⟨1, _⟩ => rfl

/-- Column c of the result comes from column c of W. -/
theorem ridx_outer (i : S10000x128.Idx) (j : Fin 128) : ridx_main_v1 i j = (ix2 j (i 1) : S128x128.Idx) := by
  funext a; match a with | ⟨0, _⟩ => rfl | ⟨1, _⟩ => rfl

/-- The bias at (r, c) is b (c). -/
theorem idx_bias (i : S10000x128.Idx) : idx_main_v2 (idx_main_v3 i) = (ix1 (i 1) : S128.Idx) := by
  funext a; match a with | ⟨0, _⟩ => rfl

/-- The reference's result, as the run states it, is the layer of its four arguments. -/
theorem result_eq (x0 : (⟨S10000x128, .f32⟩ : BufTy).Contents (Elt Ideal)) (x1 : (⟨S10000x10000, .f32⟩ : BufTy).Contents (Elt Ideal))
    (x2 : (⟨S128x128, .f32⟩ : BufTy).Contents (Elt Ideal)) (x3 : (⟨S128, .f32⟩ : BufTy).Contents (Elt Ideal)) :
    val_main_v4 (F := Ideal) x0 x1 x2 x3 = Cert.LayerSpec.layer x0 x1 x2 x3 := by
  funext i
  rw [val_main_v4_apply, val_main_v1_apply, val_main_v3_apply, val_main_v2_apply]
  simp only [val_main_v0_apply, lidx_inner, ridx_inner, ridx_outer, idx_bias]
  rfl

end Cert.ReferenceIdeal.RefValue

end
-- ==== Proof.lean ====
/-
  The certificate of the graph-convolution layer kernel against its reference.

  The kernel streams A in 25 tiles of 400 rows, each consumed in two steps of 200 rows; a step multiplies its band of A
  by the whole X, the result by W, adds the bias row, and stores the 200 × 128 result into its half of the staged output
  block, which is written back after the tile's second step. The reference computes (A · X) · W + b on whole arrays.

  * Frames. For the kernel as printed and for its idealization the run is assembled from one step's triple
    (Proof/KernelStep.lean, Proof/KernelIdealStep.lean) through proof data that relate what a step finds in each staged
    buffer to what it leaves there (Proof/KernelRun.lean, Proof/KernelIdealRun.lean); the reference's frame is its
    generated run with the result dropped.
  * The idealization rewrote nothing, so there is nothing to preserve.
  * Equality on the extended reals. The kernel's output array ends at the layer Σ_j (Σ_k A (r, k) · X (k, j)) · W (j, c)
    + b (c) of its arguments (Proof/KernelIdealValue.lean): two consecutive steps fill a block with its 400 rows of the
    layer, and the 25 blocks tile the rows. The reference's result is the same function, operation by operation
    (Proof/RefSide.lean). Both sides associate the products the same way, so no sum is regrouped and the inputs'
    finiteness is never used.
-/
import proofs.«159365_g70858370449879_cont_9to1_m_1099_15_alg».proof.Defs
import proofs.«159365_g70858370449879_cont_9to1_m_1099_15_alg».proof.Proof.Gen.Kernel
import proofs.«159365_g70858370449879_cont_9to1_m_1099_15_alg».proof.Proof.Gen.KernelIdeal
import proofs.«159365_g70858370449879_cont_9to1_m_1099_15_alg».proof.Proof.Gen.ReferenceIdeal
import proofs.«159365_g70858370449879_cont_9to1_m_1099_15_alg».proof.Proof.Gen.Pre_finite_inputs
import proofs.«159365_g70858370449879_cont_9to1_m_1099_15_alg».proof.Proof.KernelRun
import proofs.«159365_g70858370449879_cont_9to1_m_1099_15_alg».proof.Proof.KernelIdealValue
import proofs.«159365_g70858370449879_cont_9to1_m_1099_15_alg».proof.Proof.RefSide
import Idealize.ShloMosaic.Adequacy
import Idealize.ShloMosaic.Init

noncomputable section

namespace Cert.Proof

open Idealize.ShloMosaic Idealize.SL.Sem

theorem frame_kernel : Cert.frame_Kernel :=
  fun m ρ _ => Cert.Kernel.Hand.frame (F := Bits) m ρ

theorem frame_kernelIdeal : Cert.frame_KernelIdeal :=
  fun m ρ _ => Cert.KernelIdeal.Hand.frame (F := Ideal) m ρ

theorem frame_reference : Cert.frame_ReferenceIdeal :=
  fun m ρ _ => (θ_run Cert.ReferenceIdeal.defs _ _).mono (fun _ h c => (h c).2)
    (Cert.ReferenceIdeal.Value.run (F := Ideal) m ρ)

/-- Both programs end at the layer of arguments that agree. -/
theorem algebraic : Cert.algebraic_KernelIdeal_ReferenceIdeal := by
  intro m ρ m' ρ' _ hagree
  refine ⟨fun c => Cert.KernelIdeal.Hand.layerOf m c, Cert.KernelIdeal.Hand.run_value m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v4_eq, Cert.ReferenceIdeal.RefValue.result_eq,
    (hagree c).1, (hagree c).2.1, (hagree c).2.2.1, (hagree c).2.2.2]
  rfl

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, trivial, algebraic⟩

end Cert.Proof

end
